-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel

variable [Facts]

def fn {F : FTy → Type} [FloatOps F] (main_arg0 : FVec F S32x2048x1024 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  main_v3
-- ==== Kernel.lean ====
abbrev S32x2048x1024 : Shape := ⟨3, ![32, 2048, 1024]⟩
abbrev S65536x1024 : Shape := ⟨2, ![65536, 1024]⟩
abbrev S2048x1024 : Shape := ⟨2, ![2048, 1024]⟩

abbrev nBuf : Space → Nat
  | .hbm => 4
  | .vmem => 4
  | .smem => 0
  | _ => 0

abbrev bufTy : (tb : Table) → Fin (tcTables nBuf tb) → BufTy
  | .hbm, ⟨0, _⟩ => ⟨S32x2048x1024, .f32⟩
  | .hbm, ⟨1, _⟩ => ⟨S65536x1024, .f32⟩
  | .hbm, ⟨2, _⟩ => ⟨S65536x1024, .f32⟩
  | .hbm, ⟨3, _⟩ => ⟨S32x2048x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x2048x1024_S65536x1024 : S32x2048x1024.ShapeCasts S65536x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S65536x1024_S32x2048x1024 : S65536x1024.ShapeCasts S32x2048x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S65536x1024.size a
  hwx0_1 : ∀ i : grid0.Coords, EltTy.bits .f32 = 32 ∨ (Rect.block (s := S65536x1024) S2048x1024.size (cc0_transform_1 i) (hinb0_1 i)).WholeWords (EltTy.packing .f32)

variable [Facts₀]

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S32x2048x1024 : Shape := ⟨3, ![32, 2048, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S_, .f32⟩
  | .hbm, ⟨2, _⟩ => ⟨S32x2048x1024, .f32⟩
  | .hbm, ⟨3, _⟩ => ⟨S32x2048x1024, .f32⟩
  | .hbm, ⟨4, _⟩ => ⟨S_, .f32⟩
  | .hbm, ⟨5, _⟩ => ⟨S32x2048x1024, .f32⟩
  | .hbm, ⟨6, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S_S32x2048x1024 : S_.BroadcastsInDim S32x2048x1024 (![] : Fin 0 → Fin S32x2048x1024.rank)

variable [Facts₀]

class Facts : Prop extends Facts₀ where

variable [Facts]
-- ==== Proof.Affine.lean ====
/-
  The function both programs compute: every element `a` of the input goes to `a · 2 + 2`.

  The multiplier and the addend are the same f32 word `0x40000000` (the number 2) in both programs, so the word
  is never evaluated: `affine x` is stated with the word itself, and is the same term at every float instance.  The map
  acts element by element, on an array of any shape.
-/
import Idealize.ShloMosaic.PureOps

noncomputable section

namespace Cert.Affine

open Idealize.ShloMosaic

variable {F : FTy → Type} [FloatOps F]

/-- One element through the map: `a · 2 + 2`, the product first, both constants the f32 word of 2. -/
def affine1 (a : F .f32) : F .f32 :=
  FloatOps.addf (FloatOps.mulf a (FloatOps.ofBits .f32 0x40000000#32)) (FloatOps.ofBits .f32 0x40000000#32)

/-- The map on an array of any shape: element `i` of the result is `affine1` of element `i` of the input. -/
def affine {s : Shape} (x : s.Idx → F .f32) : s.Idx → F .f32 := fun i => affine1 (x i)

end Cert.Affine

end
-- ==== Proof.Region.lean ====
/-
  The region, read as values: after the 32 grid points have run, the output array is the affine map of the input array.

  The kernel's region walks the [65536, 1024] array in 32 blocks of 2048 whole rows.  At point `t` the input window holds rows
  `2048·t … 2048·t + 2047` of the array the region was entered with; the body loads that block whole, multiplies every
  element by 2, adds 2, and stores the result over the whole output block, which is written back to the same rows of
  the output array.  So
    * what point `t` writes back is block `t` of `affine` of the input array (`written_back`): the input window and the
      output window sit at the same block index at every point, so element `j` of the block is computed from the input
      element at the very array index the output element lands on;
    * every row `r` lies in exactly the block of point `r / 2048`, so the 32 blocks cover the array (`covered`);
    * hence the output array after the region IS `affine` of the input array (`region_result`), whatever it held before.
  All of it holds at every float instance: the body's operations are never opened, only carried along.
-/
import proofs.«108170_j76166950027695_2_alg».proof.Proof.Gen.KernelIdeal.Frame
import proofs.«108170_j76166950027695_2_alg».proof.Proof.Affine
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.SL.Sem Cert.Affine
open Idealize.ShloMosaic.Pipeline (Dat)

variable {F : FTy → Type} [FloatOps F]
variable (m : (ℓ : Loc nD τ sig) → Buf (Elt F) ℓ)

/-- The body's load and store rectangles start at row 0, column 0. -/
theorem zero_offsets : (![0, 0] : Fin 2 → Nat) = fun _ => 0 := funext fun a => by fin_cases a <;> rfl

/-- What the body stores, as a function of the block it loaded: the shape cast is to the block's own shape, so it
    changes nothing, and the rest is `· 2 + 2` element by element. -/
theorem payload_eq (x0 : Vec F S2048x1024 .f32) : k0_pay1 x0 = affine (F := F) x0 := by
  show addf (mulf (shapeCast S2048x1024 x0 _) (broadcast S2048x1024 (Scalar.ofBits .f32 0x40000000#32)))
      (broadcast S2048x1024 (Scalar.ofBits .f32 0x40000000#32)) = _
  rw [shapeCast_self]
  rfl

/-- The two index maps, decided over the 32 points: the input block and the output block of a point have the same
    block index on both axes, the column block index is 0, and the row block index is below 32. -/
theorem index_facts : ∀ t : Fin cfg0.N, win0_0.index t (0 : Fin 2) = win0_1.index t (0 : Fin 2)
    ∧ win0_0.index t (1 : Fin 2) = win0_1.index t (1 : Fin 2)
    ∧ win0_1.index t (1 : Fin 2) = 0
    ∧ win0_1.index t (0 : Fin 2) ≤ 31 :=
  (by decide +kernel : ∀ t : Fin grid0.N, _)

/-- Every row block `q` of the output array is some point's. -/
theorem index_onto : ∀ q : Fin 32, ∃ t : Fin cfg0.N, win0_1.index t = ![q.val, 0] :=
  (by decide +kernel : ∀ q : Fin 32, ∃ t : Fin grid0.N, win0_1.index t = ![q.val, 0])

/-- What point `t` writes back to the output array is block `t` of `affine` of the input array as the region found it. -/
theorem written_back (c : Dev nD) (t : Fin cfg0.N) :
    (dats m 0 c).flushed 1 t = ((cfg0.win 1).blk t).view.read (Elt F) (affine (F := F) (V m c main_v0)) := by
  show (cfg0.win 1).cut (grid0.coords t) ((dats m 0 c).after 1 t) = _
  rw [after0_1]
  unfold out0_1
  rw [View.canon_unit_zero zero_offsets]
  simp only [View.ld_unit_zero (S := S2048x1024) zero_offsets]
  rw [payload_eq]
  obtain ⟨e0, e1, e2, e3⟩ := index_facts t
  funext j
  show affine1 (V m c main_v0 (((cfg0.win 0).blk t).view.emb j)) = affine1 (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 2048 + 1 * (j 0).val = win0_1.index t (0 : Fin 2) * 2048 + 1 * (j 0).val; omega
    | ⟨1, _⟩ => show win0_0.index t (1 : Fin 2) * 1024 + 1 * (j 1).val = win0_1.index t (1 : Fin 2) * 1024 + 1 * (j 1).val; omega
  rw [h0]

/-- An index of the output array is in point `t`'s block iff each coordinate is in the block's range on its axis. -/
theorem mem_block (t : Fin cfg0.N) (i : S65536x1024.Idx) :
    i ∈ ((cfg0.win 1).blk t).view.set ↔ ∀ a : Fin 2, win0_1.index t a * S2048x1024.size a ≤ (i a).val
      ∧ (i a).val < win0_1.index t a * S2048x1024.size a + S2048x1024.size a := by
  show i ∈ ((View.whole main_v1).slice (win0_1.rect t)).set ↔ _
  rw [View.set_slice_whole, Rect.mem_set_unit]
  exact Iff.rfl

/-- The blocks cover the array: row `r`, any column, is in the block of the point whose row block index is `r / 2048`. -/
theorem covered (i : S65536x1024.Idx) :
    ∃ t : Fin cfg0.N, (cfg0.win 1).flush t = true ∧ i ∈ ((cfg0.win 1).blk t).view.set := by
  have hi0 : (i 0).val < 65536 := (i 0).isLt
  have hi1 : (i 1).val < 1024 := (i 1).isLt
  obtain ⟨t, ht⟩ := index_onto ⟨(i 0).val / 2048, by omega⟩
  have q0 : win0_1.index t (0 : Fin 2) = (i 0).val / 2048 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 2048 ≤ (i 0).val ∧ (i 0).val < win0_1.index t (0 : Fin 2) * 2048 + 2048; omega
  | ⟨1, _⟩ => show win0_1.index t (1 : Fin 2) * 1024 ≤ (i 1).val ∧ (i 1).val < win0_1.index t (1 : Fin 2) * 1024 + 1024; omega

/-- The output array after the region: `affine` of the input array the region was entered with. -/
theorem region_result (c : Dev nD) : (dats m 0 c).arrAt 1 cfg0.N = affine (F := F) (V m c main_v0) :=
  (dats m 0 c).arrAt_eq_of_cover 1 (affine (F := F) (V m c main_v0)) (fun t _ => written_back m c t) covered

end Cert.KernelIdeal.Region

end
-- ==== Proof.LibReshapeMap.lean ====
/-
  A reshape is a re-indexing, so it commutes with any map applied element by element.

  `shapeCast t x h` reads the array `x` of shape `s` at the shape `t` through the row-major bijection between the two
  index sets (the shapes have the same number of elements): element `j` of the result is element `reshapeEquiv h j` of
  `x`.  Two consequences, for any function `f` on the elements:
    * `shapeCast_map`: applying `f` to every element and then reshaping is reshaping and then applying `f`;
    * `shapeCast_map_shapeCast`: reshaping `x` to `t`, applying `f` to every element there, and reshaping back to `s` is
      applying `f` to every element of `x` — the two row-major bijections are inverse to each other, so index `i` of
      the round trip reads `x` at `i` again.
  Nothing here depends on the element type, the shapes' ranks or their extents.
-/
import Idealize.ShloMosaic.Lib.Pipeline.Value

namespace Idealize.ShloMosaic.ReshapeMap

variable {α β : Type} {s t : Shape}

/-- Mapping the elements and then reshaping is reshaping and then mapping the elements: both read `f (x ·)` along the
    same row-major bijection. -/
theorem shapeCast_map (f : α → β) (x : s.Idx → α) (h : s.ShapeCasts t) :
    shapeCast t (fun i => f (x i)) h = fun j => f (shapeCast t x h j) := rfl

/-- Reshape, map the elements, reshape back: the map of the array itself.  Index `i` of the left side is `f` of `x` at
    the image of `i` under the bijection `s → t` followed by the bijection `t → s`, which is `i`. -/
theorem shapeCast_map_shapeCast (f : α → β) (x : s.Idx → α) (h : s.ShapeCasts t) (h' : t.ShapeCasts s) :
    shapeCast s (fun j => f (shapeCast t x h j)) h' = fun i => f (x i) := by
  funext i
  show f (shapeCast s (shapeCast t x h) h' i) = f (x i)
  rw [shapeCast_shapeCast]

end Idealize.ShloMosaic.ReshapeMap
-- ==== Proof.KernelValue.lean ====
/-
  The whole kernel program, read as values: its result is `affine` of its argument.

  Around the region the program only re-indexes.  Before it, the [32, 2048, 1024] argument is reshaped to
  [65536, 1024] (row-major: the same elements in the same order), and that array is what the region's input window
  walks (`entry_array`).  After it, the region's [65536, 1024] output array is reshaped back to [32, 2048, 1024]
  (`tail_result`).  The region maps its input array through `affine` (Region.lean), and a map applied element by
  element between a reshape and the inverse reshape is that map applied to the original array (LibReshapeMap.lean):
  the result buffer ends at `affine` of the argument (`result_eq`), and the argument buffer is untouched (`run`).
-/
import proofs.«108170_j76166950027695_2_alg».proof.Proof.Region
import proofs.«108170_j76166950027695_2_alg».proof.Proof.LibReshapeMap
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.StableHlo Cert.Affine

variable {F : FTy → Type} [FloatOps F]
variable (m : (ℓ : Loc nD τ sig) → Buf (Elt F) ℓ) (ρ : Dev nD → PrngReg)

/-- The array the region's input window walks: the argument, reshaped to [65536, 1024]. -/
theorem entry_array (c : Dev nD) : (V m c main_v0 : S65536x1024.Idx → Elt F .f32)
    = shapeCast S65536x1024 (m ((c : Thread nD τ).loc main_arg0)) shapeCasts_S32x2048x1024_S65536x1024 := by
  show StableHlo.after hostOps0 (fun b => m (c, b)) (Proc.devRef .tc main_v0) = _
  after_results
  rfl

/-- The program's result buffer after the line that follows the region: the region's output array, reshaped back
    to [32, 2048, 1024]. -/
theorem tail_result (c : Dev nD) :
    (Pipeline.afterTail₀ cfgs (dats m) 0 (V0 m) [hostOps1] c main_v2 : S32x2048x1024.Idx → Elt F .f32)
      = shapeCast S32x2048x1024 ((dats m 0 c).arrAt 1 cfg0.N) shapeCasts_S65536x1024_S32x2048x1024 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = (dats m 0 c).arrAt 1 cfg0.N :=
    Pipeline.withArrays_arr spec0 launch0.win.arr_inj c _ _ 1
  rw [e]
  rfl

/-- The result buffer holds `affine` of the argument: reshape, the region's map, reshape back. -/
theorem result_eq (c : Dev nD) :
    (Pipeline.afterTail₀ cfgs (dats m) 0 (V0 m) [hostOps1] c main_v2 : S32x2048x1024.Idx → Elt F .f32)
      = affine (F := F) (m ((c : Thread nD τ).loc main_arg0)) := by
  rw [tail_result, Region.region_result, entry_array]
  exact ReshapeMap.shapeCast_map_shapeCast (affine1 (F := F)) (m ((c : Thread nD τ).loc main_arg0))
    shapeCasts_S32x2048x1024_S65536x1024 shapeCasts_S65536x1024_S32x2048x1024

/-- Every weakly fair execution of the kernel program terminates, nothing faulting, with the result buffer at
    `affine` of the argument and the argument as launched. -/
theorem run : θ_run defs (onTc (τ := τ) (main (F := F))) ⟨m, fun _ => 0, ρ⟩ fun r => ∀ c : Dev nD,
      r.2.mem ((c : Thread nD τ).loc main_v2) = affine (F := F) (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.KernelValue

end
-- ==== Proof.RefValue.lean ====
/-
  The reference, read element by element: its result is `affine` of its argument.

  The reference multiplies the input by a scalar 2 broadcast to the input's shape and adds a second such
  broadcast.  A broadcast of a rank-0 array reads the scalar at every index, so element `i` of the result is
  `x i · 2 + 2` with both constants the f32 word `0x40000000`: `affine1 (x i)`.
-/
import proofs.«108170_j76166950027695_2_alg».proof.Proof.Gen.ReferenceIdeal.Read
import proofs.«108170_j76166950027695_2_alg».proof.Proof.Affine

noncomputable section

namespace Cert.ReferenceIdeal.RefValue

open Cert.ReferenceIdeal Cert.ReferenceIdeal.Read Idealize.ShloMosaic Cert.Affine

variable {F : FTy → Type} [FloatOps F]

/-- The last stage of the reference (the sum of the product and the broadcast addend) is the affine map of the
    argument: at an index the two broadcasts read their scalar constants, and what is left is `x i · 2 + 2`. -/
theorem result_eq (x : (⟨S32x2048x1024, .f32⟩ : BufTy).Contents (Elt F)) :
    val_main_v3 (F := F) x = affine (F := F) x := by
  funext i
  rw [val_main_v3_apply, val_main_v1_apply, val_main_v0_apply, val_main_v2_apply, val_main_cst_apply,
    val_main_cst_0_apply]
  rfl

end Cert.ReferenceIdeal.RefValue

end
-- ==== Proof.lean ====
/- The kernel and its reference compute the same array: every element `a` of the [32, 2048, 1024] input goes to `a · 2 + 2`.

   The reference does it in one line of array arithmetic: the input times a broadcast 2, plus a broadcast 2.  The kernel
   reshapes the input to [65536, 1024] (row-major, the same elements in the same order), walks that array in 32 blocks
   of 2048 whole rows — each block loaded, multiplied by 2, 2 added, and written to the same rows of the output array —
   and reshapes the output back to [32, 2048, 1024].  Both programs use the same f32 word for 2, apply the product
   before the sum, and touch each element once, so over the extended reals the two results agree element by element
   with no algebra at all: what has to be shown is only that the blocks cover the array, each block landing where it
   was read from (Proof/Region.lean), and that reshaping, mapping element by element and reshaping back is mapping
   the array itself (Proof/LibReshapeMap.lean, Proof/KernelValue.lean).  The reference's side is Proof/RefValue.lean.
   No input needs to be finite for this: `a · 2 + 2` is the same extended real on both sides whatever `a` is.

   The three frame conjuncts are the programs' runs with the values dropped; the idealization rewrote nothing, so
   there is nothing to preserve. -/
import proofs.«108170_j76166950027695_2_alg».proof.Defs
import proofs.«108170_j76166950027695_2_alg».proof.Proof.Gen.Kernel
import proofs.«108170_j76166950027695_2_alg».proof.Proof.Gen.Kernel.Skeleton
import proofs.«108170_j76166950027695_2_alg».proof.Proof.Gen.Kernel.Launch
import proofs.«108170_j76166950027695_2_alg».proof.Proof.Gen.Kernel.Points
import proofs.«108170_j76166950027695_2_alg».proof.Proof.Gen.Kernel.Frame
import proofs.«108170_j76166950027695_2_alg».proof.Proof.Gen.KernelIdeal
import proofs.«108170_j76166950027695_2_alg».proof.Proof.Gen.KernelIdeal.Skeleton
import proofs.«108170_j76166950027695_2_alg».proof.Proof.Gen.KernelIdeal.Launch
import proofs.«108170_j76166950027695_2_alg».proof.Proof.Gen.KernelIdeal.Points
import proofs.«108170_j76166950027695_2_alg».proof.Proof.Gen.KernelIdeal.Frame
import proofs.«108170_j76166950027695_2_alg».proof.Proof.Gen.ReferenceIdeal
import proofs.«108170_j76166950027695_2_alg».proof.Proof.Gen.Pre_finite_inputs
import proofs.«108170_j76166950027695_2_alg».proof.Proof.Gen.ReferenceIdeal.Run
import proofs.«108170_j76166950027695_2_alg».proof.Proof.Gen.ReferenceIdeal.Read
import proofs.«108170_j76166950027695_2_alg».proof.Proof.KernelValue
import proofs.«108170_j76166950027695_2_alg».proof.Proof.RefValue
import Idealize.ShloMosaic.Adequacy
import Idealize.ShloMosaic.Init

noncomputable section

namespace Cert.Proof

open Idealize.ShloMosaic Idealize.SL.Sem Cert.Kernel

/-- The word-level kernel runs to the end without a fault and leaves its argument as it was. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation of the kernel. -/
theorem preserves : Cert.preserves_Kernel_KernelIdeal := trivial

/-- From memories that agree on the argument, the idealized kernel ends with its result at `affine` of the argument
    (Proof/KernelValue.lean) and the reference with its result at the sum of the product and the broadcast constant,
    which read element by element is `affine` of the same argument (Proof/RefValue.lean). -/
theorem algebraic : Cert.algebraic_KernelIdeal_ReferenceIdeal := by
  intro m ρ m' ρ' _ hagree
  refine ⟨_, Cert.KernelIdeal.KernelValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.ReferenceIdeal.Read.val_main_v3_eq _).trans (Cert.ReferenceIdeal.RefValue.result_eq _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
